-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x2x1280 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x32000 : Shape := ⟨3, ![2048, 2, 32000]⟩
abbrev S32000x128 : Shape := ⟨2, ![32000, 128]⟩
abbrev S32000 : Shape := ⟨1, ![32000]⟩
abbrev S_ : Shape := ⟨0, ![]⟩

class Facts : Prop where
  bcast_S_S2048x2x32000 : S_.BroadcastsInDim S2048x2x32000 (![] : Fin 0 → Fin S2048x2x32000.rank)
  reducesTo_S2048x2x32000_S_d0_1_2 : S2048x2x32000.ReducesTo [0, 1, 2] S_
  h_S_ : 0 < S_.numel
  bcast_S_S32000x128 : S_.BroadcastsInDim S32000x128 (![] : Fin 0 → Fin S32000x128.rank)
  reducesTo_S32000x128_S_d0_1 : S32000x128.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  main_v18

def fn {F : FTy → Type} [FloatOps F] (main_arg0 : FVec F S2048x2x32000 .f32) (main_arg1 : FVec F S32000x128 .f32) (main_arg2 : FVec F S32000x128 .f32) (main_arg3 : FVec F S32000 .f32) : IVec S_ 1 :=
  let main_v0 : FVec F S2048x2x32000 .f32 := Host.absf main_arg0
  let main_cst : FVec F S_ .f32 := constant S_ .f32 0x7F800000#32
  let main_v1 : FVec F S2048x2x32000 .f32 := broadcastInDim S2048x2x32000 ![] bcast_S_S2048x2x32000 main_cst
  let main_v2 : IVec S2048x2x32000 1 := cmpf .olt main_v0 main_v1
  let main_c : IVec S_ 1 := constantI S_ 1 1#1
  let main_v3 : IVec S_ 1 := (fun x v => Host.reduce IntOp.andi x v reducesTo_S2048x2x32000_S_d0_1_2 h_S_) main_v2 main_c
  let main_v4 : FVec F S32000x128 .f32 := Host.absf main_arg1
  let main_cst_0 : FVec F S_ .f32 := constant S_ .f32 0x7F800000#32
  let main_v5 : FVec F S32000x128 .f32 := broadcastInDim S32000x128 ![] bcast_S_S32000x128 main_cst_0
  let main_v6 : IVec S32000x128 1 := cmpf .olt main_v4 main_v5
  let main_c_1 : IVec S_ 1 := constantI S_ 1 1#1
  let main_v7 : IVec S_ 1 := (fun x v => Host.reduce IntOp.andi x v reducesTo_S32000x128_S_d0_1 h_S_) main_v6 main_c_1
  let main_v8 : IVec S_ 1 := andi main_v3 main_v7
  let main_v9 : FVec F S32000x128 .f32 := Host.absf main_arg2
  let main_cst_2 : FVec F S_ .f32 := constant S_ .f32 0x7F800000#32
  let main_v10 : FVec F S32000x128 .f32 := broadcastInDim S32000x128 ![] bcast_S_S32000x128 main_cst_2
  let main_v11 : IVec S32000x128 1 := cmpf .olt main_v9 main_v10
  let main_c_3 : IVec S_ 1 := constantI S_ 1 1#1
  let main_v12 : IVec S_ 1 := (fun x v => Host.reduce IntOp.andi x v reducesTo_S32000x128_S_d0_1 h_S_) main_v11 main_c_3
  let main_v13 : IVec S_ 1 := andi main_v8 main_v12
  let main_v14 : FVec F S32000 .f32 := Host.absf main_arg3
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_v13 main_v16
-- ==== Kernel.lean ====
abbrev S2048x2x32000 : Shape := ⟨3, ![2048, 2, 32000]⟩
abbrev S32000x128 : Shape := ⟨2, ![32000, 128]⟩
abbrev S32000 : Shape := ⟨1, ![32000]⟩
abbrev S2048x128 : Shape := ⟨2, ![2048, 128]⟩
abbrev S1024x2x1280 : Shape := ⟨3, ![1024, 2, 1280]⟩
abbrev S1280x128 : Shape := ⟨2, ![1280, 128]⟩
abbrev S1024x128 : Shape := ⟨2, ![1024, 128]⟩
abbrev S1024x1280 : Shape := ⟨2, ![1024, 1280]⟩
abbrev S1x32000 : Shape := ⟨2, ![1, 32000]⟩
abbrev S2048x32000 : Shape := ⟨2, ![2048, 32000]⟩
abbrev S1x1280 : Shape := ⟨2, ![1, 1280]⟩

abbrev nBuf : Space → Nat
  | .hbm => 7
  | .vmem => 13
  | .smem => 0
  | _ => 0

abbrev bufTy : (tb : Table) → Fin (tcTables nBuf tb) → BufTy
  | .hbm, ⟨0, _⟩ => ⟨S2048x2x32000, .f32⟩
  | .hbm, ⟨1, _⟩ => ⟨S32000x128, .f32⟩
  | .hbm, ⟨2, _⟩ => ⟨S32000x128, .f32⟩
  | .hbm, ⟨3, _⟩ => ⟨S32000, .f32⟩
  | .hbm, ⟨4, _⟩ => ⟨S2048x128, .f32⟩
  | .hbm, ⟨5, _⟩ => ⟨S1x32000, .f32⟩
  | .hbm, ⟨6, _⟩ => ⟨S2048x32000, .f32⟩
  | .local _ .vmem, ⟨0, _⟩ => ⟨S1024x2x1280, .f32⟩
  | .local _ .vmem, ⟨1, _⟩ => ⟨S1024x2x1280, .f32⟩
  | .local _ .vmem, ⟨2, _⟩ => ⟨S1280x128, .f32⟩
  | .local _ .vmem, ⟨3, _⟩ => ⟨S1280x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1280x128, .f32⟩
  | .local _ .vmem, ⟨8, _⟩ => ⟨S1280x128, .f32⟩
  | .local _ .vmem, ⟨9, _⟩ => ⟨S1x1280, .f32⟩
  | .local _ .vmem, ⟨10, _⟩ => ⟨S1x1280, .f32⟩
  | .local _ .vmem, ⟨11, _⟩ => ⟨S1024x1280, .f32⟩
  | .local _ .vmem, ⟨12, _⟩ => ⟨S1024x1280, .f32⟩
  | _, _ => ⟨S2048x2x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S1024x2x1280_S1024x2x1280_0_0_0 : ∀ a, (![0, 0, 0] : Fin 3 → Nat) a + S1024x2x1280.size a ≤ S1024x2x1280.size a
  h_S1024x2x1280 : 0 < S1024x2x1280.numel
  bitsLt_bf16_f32 : FTy.bits .bf16 < FTy.bits .f32
  reduces_S1024x2x1280_S1024x1280 : S1024x2x1280.Reduces [1] S1024x1280
  inb_S1280x128_S1280x128_0_0 : ∀ a, (![0, 0] : Fin 2 → Nat) a + S1280x128.size a ≤ S1280x128.size a
  h_S1280x128 : 0 < S1280x128.numel
  shapeCasts_S1024x128_S1024x128 : S1024x128.ShapeCasts S1024x128
  shapeCasts_S32000_S1x32000 : S32000.ShapeCasts S1x32000
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  dot_S1024x1280_S1280x128_S1024x128_1_0_0_1_n_n_wf : DotDims.WF S1024x1280 S1280x128 S1024x128 [1] [0] [0] [1] [] []
  dot_S1024x128_S1280x128_S1024x1280_1_1_0_0_n_n_wf : DotDims.WF S1024x128 S1280x128 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x1280.size a ≤ S2048x2x32000.size a
  hwx0_0 : ∀ i : grid0.Coords, EltTy.bits .f32 = 32 ∨ (Rect.block (s := S2048x2x32000) S1024x2x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S32000x128.size a
  hwx0_1 : ∀ i : grid0.Coords, EltTy.bits .f32 = 32 ∨ (Rect.block (s := S32000x128) S1280x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S2048x128.size a
  hwx1_0 : ∀ i : grid1.Coords, EltTy.bits .f32 = 32 ∨ (Rect.block (s := S2048x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S32000x128.size a
  hwx1_1 : ∀ i : grid1.Coords, EltTy.bits .f32 = 32 ∨ (Rect.block (s := S32000x128) S1280x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S2048x32000.size a
  hwx1_3 : ∀ i : grid1.Coords, EltTy.bits .f32 = 32 ∨ (Rect.block (s := S2048x32000) S1024x1280.size (cc1_transform_3 i) (hinb1_3 i)).WholeWords (EltTy.packing .f32)

variable [Facts₀]

def dot_S1024x1280_S1280x128_S1024x128_1_0_0_1_n_n : DotDims S1024x1280 S1280x128 S1024x128 where
  lhsContracting := [1]
  rhsContracting := [0]
  lhsNonContracting := [0]
  rhsNonContracting := [1]
  lhsBatch := []
  rhsBatch := []
  wf := dot_S1024x1280_S1280x128_S1024x128_1_0_0_1_n_n_wf
def dot_S1024x128_S1280x128_S1024x1280_1_1_0_0_n_n : DotDims S1024x128 S1280x128 S1024x1280 where
  lhsContracting := [1]
  rhsContracting := [1]
  lhsNonContracting := [0]
  rhsNonContracting := [0]
  lhsBatch := []
  rhsBatch := []
  wf := dot_S1024x128_S1280x128_S1024x1280_1_1_0_0_n_n_wf

abbrev win0_0 : Pipeline.Window sig grid0 :=
  Pipeline.Window.ofSpec (Memref.whole main_arg0) S1024x2x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x2x32000 : Shape := ⟨3, ![2048, 2, 32000]⟩
abbrev S32000x128 : Shape := ⟨2, ![32000, 128]⟩
abbrev S32000 : Shape := ⟨1, ![32000]⟩
abbrev S_ : Shape := ⟨0, ![]⟩
abbrev S2048x32000 : Shape := ⟨2, ![2048, 32000]⟩
abbrev S2048x128 : Shape := ⟨2, ![2048, 128]⟩
abbrev S128x32000 : Shape := ⟨2, ![128, 32000]⟩
abbrev S1x32000 : Shape := ⟨2, ![1, 32000]⟩

abbrev nBuf : Space → Nat
  | .hbm => 15
  | .vmem => 0
  | .smem => 0
  | _ => 0

abbrev bufTy : (tb : Table) → Fin (tcTables nBuf tb) → BufTy
  | .hbm, ⟨0, _⟩ => ⟨S2048x2x32000, .f32⟩
  | .hbm, ⟨1, _⟩ => ⟨S32000x128, .f32⟩
  | .hbm, ⟨2, _⟩ => ⟨S32000x128, .f32⟩
  | .hbm, ⟨3, _⟩ => ⟨S32000, .f32⟩
  | .hbm, ⟨4, _⟩ => ⟨S_, .f32⟩
  | .hbm, ⟨5, _⟩ => ⟨S2048x32000, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S128x32000, .f32⟩
  | .hbm, ⟨11, _⟩ => ⟨S2048x32000, .f32⟩
  | .hbm, ⟨12, _⟩ => ⟨S1x32000, .f32⟩
  | .hbm, ⟨13, _⟩ => ⟨S2048x32000, .f32⟩
  | .hbm, ⟨14, _⟩ => ⟨S2048x32000, .f32⟩
  | _, _ => ⟨S2048x2x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  reducesTo_S2048x2x32000_S2048x32000_d1 : S2048x2x32000.ReducesTo [1] S2048x32000
  h_S_ : 0 < S_.numel
  bcast_S_S2048x128 : S_.BroadcastsInDim S2048x128 (![] : Fin 0 → Fin S2048x128.rank)
  transposes_S32000x128_S128x32000_1_0 : S32000x128.Transposes [1, 0] S128x32000
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  dot_S2048x32000_S32000x128_S2048x128_1_0_0_1_n_n_wf : DotDims.WF S2048x32000 S32000x128 S2048x128 [1] [0] [0] [1] [] []
  dot_S2048x128_S128x32000_S2048x32000_1_0_0_1_n_n_wf : DotDims.WF S2048x128 S128x32000 S2048x32000 [1] [0] [0] [1] [] []

variable [Facts₀]

def dot_S2048x32000_S32000x128_S2048x128_1_0_0_1_n_n : DotDims S2048x32000 S32000x128 S2048x128 where
  lhsContracting := [1]
  rhsContracting := [0]
  lhsNonContracting := [0]
  rhsNonContracting := [1]
  lhsBatch := []
  rhsBatch := []
  wf := dot_S2048x32000_S32000x128_S2048x128_1_0_0_1_n_n_wf
def dot_S2048x128_S128x32000_S2048x32000_1_0_0_1_n_n : DotDims S2048x128 S128x32000 S2048x32000 where
  lhsContracting := [1]
  rhsContracting := [0]
  lhsNonContracting := [0]
  rhsNonContracting := [1]
  lhsBatch := []
  rhsBatch := []
  wf := dot_S2048x128_S128x32000_S2048x32000_1_0_0_1_n_n_wf

class Facts : Prop extends Facts₀ where

variable [Facts]
-- ==== Proof.Spec.lean ====
/-
  The function both programs compute, over the extended reals, index by index.

  For inputs x[b, c, v] (b < 2048, c < 2, v < 32000), proj[v, e] and W[v, e] (e < 128) and bias[v]:
    ctx x b v          = x[b, 0, v] + x[b, 1, v]                          (the two context rows added)
    avg x proj b e     = ∑ v, ctx x b v * proj[v, e]                       (a vocabulary-long contraction)
    out x proj W bias  = fun (b, v) => (∑ e, avg b e * W[v, e]) + bias[v]  (the output projection)
    result             = out with the bias read as the one row of a [1, 32000] array
  together with the one fact about finite sums the vocabulary tiling needs: a sum over `Fin N` is the last of its
  partial sums over initial segments, and the partial sum grows by one tile's sum when the segment grows by one tile.
-/
import Idealize.ShloMosaic.PureOps.Ideal
import Idealize.ShloMosaic.Lib.ValueIdx

noncomputable section

namespace Cert.Spec

open Idealize.ShloMosaic Idealize.ShloMosaic.ValueIdx

/-- The two context rows of `x` at batch row `b` and vocabulary entry `v`, added. -/
def ctx (x : (⟨3, ![2048, 2, 32000]⟩ : Shape).Idx → EReal) (b : Fin 2048) (v : Fin 32000) : EReal :=
  ∑ c : Fin 2, x (ix3 b c v)

/-- One term of the vocabulary contraction. -/
def term (x : (⟨3, ![2048, 2, 32000]⟩ : Shape).Idx → EReal) (proj : (⟨2, ![32000, 128]⟩ : Shape).Idx → EReal)
    (b : Fin 2048) (e : Fin 128) (v : Fin 32000) : EReal :=
  ctx x b v * proj (ix2 v e)

/-- The embedding of batch row `b`: the context sum contracted with `proj` over the vocabulary. -/
def avg (x : (⟨3, ![2048, 2, 32000]⟩ : Shape).Idx → EReal) (proj : (⟨2, ![32000, 128]⟩ : Shape).Idx → EReal)
    (b : Fin 2048) (e : Fin 128) : EReal :=
  ∑ v : Fin 32000, term x proj b e v

/-- `avg` as an array of shape [2048, 128]. -/
def avgArr (x : (⟨3, ![2048, 2, 32000]⟩ : Shape).Idx → EReal) (proj : (⟨2, ![32000, 128]⟩ : Shape).Idx → EReal) :
    (⟨2, ![2048, 128]⟩ : Shape).Idx → EReal :=
  fun i => avg x proj (i 0) (i 1)

theorem avgArr_apply (x : (⟨3, ![2048, 2, 32000]⟩ : Shape).Idx → EReal) (proj : (⟨2, ![32000, 128]⟩ : Shape).Idx → EReal)
    (b : Fin 2048) (e : Fin 128) : avgArr x proj (ix2 b e) = ∑ v : Fin 32000, term x proj b e v := rfl

/-- The output projection of an embedding array `a`: `a · Wᵀ + bias`, the bias given as a [1, 32000] row. -/
def proj2 (a : (⟨2, ![2048, 128]⟩ : Shape).Idx → EReal) (W : (⟨2, ![32000, 128]⟩ : Shape).Idx → EReal)
    (brow : (⟨2, ![1, 32000]⟩ : Shape).Idx → EReal) : (⟨2, ![2048, 32000]⟩ : Shape).Idx → EReal :=
  fun i => (∑ e : Fin 128, a (ix2 (i 0) e) * W (ix2 (i 1) e)) + brow (ix2 (0 : Fin 1) (i 1))

/-- The whole result: the projection of `avgArr x proj`. -/
def out (x : (⟨3, ![2048, 2, 32000]⟩ : Shape).Idx → EReal) (proj W : (⟨2, ![32000, 128]⟩ : Shape).Idx → EReal)
    (brow : (⟨2, ![1, 32000]⟩ : Shape).Idx → EReal) : (⟨2, ![2048, 32000]⟩ : Shape).Idx → EReal :=
  proj2 (avgArr x proj) W brow

/-- A bias vector [32000] as the one row of a [1, 32000] array. -/
def biasRow (bias : (⟨1, ![32000]⟩ : Shape).Idx → EReal) : (⟨2, ![1, 32000]⟩ : Shape).Idx → EReal :=
  fun i => bias (ix1 (i 1))

/-- THE RESULT both programs compute, as one function of the four argument arrays. -/
def result (x : (⟨3, ![2048, 2, 32000]⟩ : Shape).Idx → EReal) (proj W : (⟨2, ![32000, 128]⟩ : Shape).Idx → EReal)
    (bias : (⟨1, ![32000]⟩ : Shape).Idx → EReal) : (⟨2, ![2048, 32000]⟩ : Shape).Idx → EReal :=
  out x proj W (biasRow bias)

/-! ## Partial sums over initial segments -/

/-- The sum of `f` over the indices below `n`. -/
def upTo {N : ℕ} (f : Fin N → EReal) (n : ℕ) : EReal :=
  ∑ v ∈ Finset.range n, if h : v < N then f ⟨v, h⟩ else 0

theorem upTo_zero {N : ℕ} (f : Fin N → EReal) : upTo f 0 = 0 := Finset.sum_range_zero _

/-- Growing the segment by a tile of `B` indices adds the tile's sum. -/
theorem upTo_add {N : ℕ} (f : Fin N → EReal) (n B : ℕ) (h : n + B ≤ N) :
    upTo f (n + B) = upTo f n + ∑ j : Fin B, f ⟨n + j.val, lt_of_lt_of_le (Nat.add_lt_add_left j.isLt n) h⟩ := by
  unfold upTo
  rw [Finset.sum_range_add]
  refine congrArg (_ + ·) ?_
  rw [Finset.sum_range]
  exact Finset.sum_congr rfl fun j _ => dif_pos (lt_of_lt_of_le (Nat.add_lt_add_left j.isLt n) h)

/-- The segment of all `N` indices gives the whole sum. -/
theorem upTo_all {N : ℕ} (f : Fin N → EReal) : upTo f N = ∑ v : Fin N, f v := by
  unfold upTo
  rw [Finset.sum_range]
  exact Finset.sum_congr rfl fun v _ => dif_pos v.isLt

end Cert.Spec

end
-- ==== Proof.KernelRun.lean ====
/-
  The idealized kernel's whole run with its RESULT named.

  @main is two kernel regions with one host line (a reshape of the bias) between them. The buffer contents at the
  segment boundaries are a fold from the launch memory: `W0` at launch, `W1` after the first region (its output array at
  what the region's write-backs leave), `W2` after the reshape, `W3` after the second region. Every weakly fair execution
  terminates with EVERY unscoped buffer at `W3`; read at the result buffer `main_v2` and at the four arguments this is the
  statement below. The later modules compute `W3` at `main_v2` as a function of the arguments.
-/
import proofs.«150867_j87351044866530_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_W3 : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.Region0Pay.lean ====
/-
  The first kernel's arithmetic, case by case and entry by entry.

  At grid point (i, k) the kernel holds a block x[1024, 2, 1280] of the inputs (batch tile i, vocabulary tile k), a block
  p[1280, 128] of the projection (vocabulary tile k) and the output block o[1024, 128] of batch tile i, which stays in place
  while k runs. Its body is the ACCUMULATION STEP  o ← o + (x[:, 0, :] + x[:, 1, :]) · p,  preceded at k = 0 by  o ← 0  and
  followed at k = 24 by  o ← o · 1.0.  So the block ends, by cases on k: at the step's value over the zero block (k = 0), over
  what the point before left (0 < k < 24), and at that value scaled by one (k = 24).

  Over the extended reals the step at row r and column e adds  ∑ⱼ (x[r, 0, j] + x[r, 1, j]) · p[j, e]  over the tile's 1280
  vocabulary entries: the lane sum over the context axis is a two-term sum, the matrix product into a zero accumulator a sum
  over its contracted axis, the changes of float format the identity, and the word of 1.0 the real one.
-/
import proofs.«150867_j87351044866530_2_alg».proof.Proof.Gen.KernelIdeal.Frame
import proofs.«150867_j87351044866530_2_alg».proof.Proof.Spec
import Idealize.ShloMosaic.Lib.Tactic
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx
open Idealize.ShloMosaic.Pipeline (Dat)

open Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

section AnyValues
variable {F : FTy → Type} [FloatOps F]

/-- A middle vocabulary tile (neither first nor last): the output block, holding `xo`, ends at the accumulation step's
    value of the two loaded blocks and `xo`. -/
theorem out_B (c : Dev nD) (i : grid0.Coords) (a2 : Memref sig .tc .vmem S1024x2x1280 .f32) (h2 : a2.IsWhole)
    (a3 : Memref sig .tc .vmem S1280x128 .f32) (h3 : a3.IsWhole) (a4 : Memref sig .tc .vmem S1024x128 .f32) (h4 : a4.IsWhole)
    (hc0 : ¬cond0_0 i) (hc1 : ¬cond0_1 i) (x0 : Vec F S1024x2x1280 .f32) (x1 : Vec F S1280x128 .f32) (xo : Vec F S1024x128 .f32) :
    out0_B_2 c i a2 h2 a3 h3 a4 h4 hc0 hc1 x0 x1 xo = k0_pay2 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero (S := S1024x128) hz2]
  simp only [View.readAt_eq_ld, h2.read_unread, h3.read_unread, h4.read_unread, View.ld_unit_zero (S := S1024x2x1280) hz3,
    View.ld_unit_zero (S := S1280x128) hz2, View.ld_unit_zero (S := S1024x128) hz2]

/-- The first vocabulary tile: the block is zeroed, read back, and ends at the accumulation step's value over the zero block. -/
theorem out_A (c : Dev nD) (i : grid0.Coords) (a2 : Memref sig .tc .vmem S1024x2x1280 .f32) (h2 : a2.IsWhole)
    (a3 : Memref sig .tc .vmem S1280x128 .f32) (h3 : a3.IsWhole) (a4 : Memref sig .tc .vmem S1024x128 .f32) (h4 : a4.IsWhole)
    (hc0 : cond0_0 i) (hc1 : ¬cond0_1 i) (x0 : Vec F S1024x2x1280 .f32) (x1 : Vec F S1280x128 .f32) :
    out0_A_2 c i a2 h2 a3 h3 a4 h4 hc0 hc1 x0 x1 = k0_pay2 x0 x1 (k0_pay1 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1024x128) hz2, View.readCov_unit_zero (S := S1024x128) _ hz2]
  simp only [View.readAt_eq_ld, h2.read_unread, h3.read_unread, View.ld_unit_zero (S := S1024x2x1280) hz3,
    View.ld_unit_zero (S := S1280x128) hz2]

/-- The last vocabulary tile: the accumulation step, read back, then the closing scaling of the block. -/
theorem out_C (c : Dev nD) (i : grid0.Coords) (a2 : Memref sig .tc .vmem S1024x2x1280 .f32) (h2 : a2.IsWhole)
    (a3 : Memref sig .tc .vmem S1280x128 .f32) (h3 : a3.IsWhole) (a4 : Memref sig .tc .vmem S1024x128 .f32) (h4 : a4.IsWhole)
    (hc0 : ¬cond0_0 i) (hc1 : cond0_1 i) (x0 : Vec F S1024x2x1280 .f32) (x1 : Vec F S1280x128 .f32) (xo : Vec F S1024x128 .f32) :
    out0_C_2 c i a2 h2 a3 h3 a4 h4 hc0 hc1 x0 x1 xo = k0_pay3 (k0_pay2 x0 x1 xo) := by
  unfold out0_C_2
  rw [View.read_writes_eq_canon _ _ _ (cover0_C_2 c i a2 h2 a3 h3 a4 h4 hc0 hc1 x0 x1 xo)]
  unfold kernelRun0_C
  dsimp only
  sl_unfold_words
  rw [View.canon_cons_unit_zero (S := S1024x128) hz2, View.readCov_unit_zero (S := S1024x128) _ hz2]
  simp only [View.readAt_eq_ld, h2.read_unread, h3.read_unread, h4.read_unread, View.ld_unit_zero (S := S1024x2x1280) hz3,
    View.ld_unit_zero (S := S1280x128) hz2, View.ld_unit_zero (S := S1024x128) hz2]

end AnyValues

/-! ## The payloads at an entry, over the extended reals -/

/-- The zero block. -/
theorem zero_apply (r : Fin 1024) (e : Fin 128) : (k0_pay1 (F := Ideal)) (ix2 r e) = 0 := by
  unfold k0_pay1
  exact Ideal.ofBits_zero_f32

/-- The context sum of a loaded block x[1024, 2, 1280] at row r and column j: its two context entries added. -/
theorem ctx_apply (x0 : FVec Ideal S1024x2x1280 .f32) (r : Fin 1024) (j : Fin 1280) :
    multiReduction .add [1] S1024x1280 x0 0x00000000#32 reduces_S1024x2x1280_S1024x1280 (.inl rfl) rfl (ix2 r j)
      = ∑ c : Fin 2, x0 (ix3 r c j) := by
  refine (Ideal.multiReduction_add_single x0 0x00000000#32 reduces_S1024x2x1280_S1024x1280 (.inl rfl) rfl (ix2 r j)).trans ?_
  show ∑ k : Fin 2, x0 (reduces_S1024x2x1280_S1024x1280.lift (ix2 r j) k) = _
  refine Finset.sum_congr rfl fun k _ => congrArg x0 (funext fun a => Fin.ext ?_)
  match a with
  | ⟨0, _⟩ => rfl
  | ⟨1, _⟩ => rfl
  | ⟨2, _⟩ => rfl

theorem lhs_row (i : S1024x128.Idx) (κ : dot_S1024x1280_S1280x128_S1024x128_1_0_0_1_n_n.contr.Idx) : (dot_S1024x1280_S1280x128_S1024x128_1_0_0_1_n_n.lhsIdx i κ 0).val = (i 0).val := by
  unfold DotDims.lhsIdx
  rw [dif_neg (show ¬(0 : Fin S1024x1280.rank) ∈ dot_S1024x1280_S1280x128_S1024x128_1_0_0_1_n_n.lhsBatch by decide), dif_pos (show (0 : Fin S1024x1280.rank) ∈ dot_S1024x1280_S1280x128_S1024x128_1_0_0_1_n_n.lhsNonContracting by decide)]
  rfl
theorem lhs_col (i : S1024x128.Idx) (κ : dot_S1024x1280_S1280x128_S1024x128_1_0_0_1_n_n.contr.Idx) : (dot_S1024x1280_S1280x128_S1024x128_1_0_0_1_n_n.lhsIdx i κ 1).val = (κ ⟨0, by decide⟩).val :=
  dot_S1024x1280_S1280x128_S1024x128_1_0_0_1_n_n.lhsIdx_val_of_single rfl i κ
theorem rhs_row (i : S1024x128.Idx) (κ : dot_S1024x1280_S1280x128_S1024x128_1_0_0_1_n_n.contr.Idx) : (dot_S1024x1280_S1280x128_S1024x128_1_0_0_1_n_n.rhsIdx i κ 0).val = (κ ⟨0, by decide⟩).val :=
  dot_S1024x1280_S1280x128_S1024x128_1_0_0_1_n_n.rhsIdx_val_of_single rfl i κ
theorem rhs_col (i : S1024x128.Idx) (κ : dot_S1024x1280_S1280x128_S1024x128_1_0_0_1_n_n.contr.Idx) : (dot_S1024x1280_S1280x128_S1024x128_1_0_0_1_n_n.rhsIdx i κ 1).val = (i 1).val := by
  unfold DotDims.rhsIdx
  rw [dif_neg (show ¬(1 : Fin S1280x128.rank) ∈ dot_S1024x1280_S1280x128_S1024x128_1_0_0_1_n_n.rhsBatch by decide), dif_pos (show (1 : Fin S1280x128.rank) ∈ dot_S1024x1280_S1280x128_S1024x128_1_0_0_1_n_n.rhsNonContracting by decide)]
  rfl

/-- The product of a [1024, 1280] block with a [1280, 128] block into a zero accumulator, at row r and column e: the sum
    over the tile's 1280 vocabulary entries of the products. -/
theorem matmul_apply (a : FVec Ideal S1024x1280 .bf16) (w : FVec Ideal S1280x128 .bf16) (r : Fin 1024) (e : Fin 128) :
    matmul dot_S1024x1280_S1280x128_S1024x128_1_0_0_1_n_n none a w (constant S1024x128 .f32 0x00000000#32) (ix2 r e) = ∑ j : Fin 1280, a (ix2 r j) * w (ix2 j e) := by
  simp only [matmul]
  rw [Ideal.matmul_constant_zero_apply, ← Equiv.sum_comp (ValueIdx.contrEquiv1 dot_S1024x1280_S1280x128_S1024x128_1_0_0_1_n_n 1280 rfl rfl).symm]
  refine Finset.sum_congr rfl fun k _ => ?_
  have hk := ValueIdx.contrEquiv1_symm_val dot_S1024x1280_S1280x128_S1024x128_1_0_0_1_n_n 1280 rfl rfl k
  have el : dot_S1024x1280_S1280x128_S1024x128_1_0_0_1_n_n.lhsIdx (ix2 r e) ((ValueIdx.contrEquiv1 dot_S1024x1280_S1280x128_S1024x128_1_0_0_1_n_n 1280 rfl rfl).symm k) = ix2 r k := funext fun a => Fin.ext (by
    match a with
    | ⟨0, _⟩ => exact lhs_row _ _
    | ⟨1, _⟩ => exact (lhs_col _ _).trans hk)
  have er : dot_S1024x1280_S1280x128_S1024x128_1_0_0_1_n_n.rhsIdx (ix2 r e) ((ValueIdx.contrEquiv1 dot_S1024x1280_S1280x128_S1024x128_1_0_0_1_n_n 1280 rfl rfl).symm k) = ix2 k e := funext fun a => Fin.ext (by
    match a with
    | ⟨0, _⟩ => exact (rhs_row _ _).trans hk
    | ⟨1, _⟩ => exact rhs_col _ _)
  rw [el, er]

/-- The accumulation step at row r and column e: the block's entry plus the tile's contribution, the sum over the tile's
    1280 vocabulary entries of (the two context entries added) times the projection entry. -/
theorem acc_apply (x0 : Vec Ideal S1024x2x1280 .f32) (x1 : Vec Ideal S1280x128 .f32) (xo : Vec Ideal S1024x128 .f32)
    (r : Fin 1024) (e : Fin 128) :
    k0_pay2 x0 x1 xo (ix2 r e) = xo (ix2 r e) + ∑ j : Fin 1280, (∑ c : Fin 2, x0 (ix3 r c j)) * x1 (ix2 j e) := by
  unfold k0_pay2
  simp only [shapeCast_self]
  rw [addf_apply, matmul_apply]
  refine congrArg (xo (ix2 r e) + ·) (Finset.sum_congr rfl fun j _ => ?_)
  rw [truncf_apply, truncf_apply, ctx_apply]

/-- The closing scaling multiplies by the word of 1.0: the identity on the extended reals. -/
theorem scale_apply (a : Vec Ideal S1024x128 .f32) (r : Fin 1024) (e : Fin 128) : k0_pay3 a (ix2 r e) = a (ix2 r e) := by
  unfold k0_pay3
  simp only [shapeCast_self]
  rw [mulf_apply]
  show a (ix2 r e) * Ideal.ofBits .f32 0x3F800000#32 = a (ix2 r e)
  rw [Ideal.ofBits_one_f32, mul_one]

end Cert.KernelIdeal.Region0

end
-- ==== Proof.Region0.lean ====
/-
  The first kernel call as a whole: its result array is the embedding — the context sum contracted with the projection
  over the WHOLE vocabulary — although each grid point only sees one vocabulary tile.

  The call runs a 2 × 25 grid; point t handles batch tile t / 25 and vocabulary tile t % 25, the vocabulary tile running
  fastest, and the output block of a batch tile stays in its buffer across that tile's 25 points. By induction on the point,
  after vocabulary tile k the block holds the partial sums over the first 1280·(k + 1) vocabulary entries; after tile 24 that
  is the whole sum (the order and grouping of an extended-real sum do not matter), and only then is the block written back.
  The two batch tiles' blocks cover the [2048, 128] embedding array.
-/
import proofs.«150867_j87351044866530_2_alg».proof.Proof.Gen.KernelIdeal.Frame
import proofs.«150867_j87351044866530_2_alg».proof.Proof.Spec
import proofs.«150867_j87351044866530_2_alg».proof.Proof.Region0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The first call's index maps over its 2 × 25 grid: point `t` is batch tile `t / 25` and vocabulary tile `t % 25`. -/
theorem idx_facts : ∀ t : Fin cfg0.N,
    win0_0.index t (0 : Fin 3) = t.val / 25 ∧ win0_0.index t (1 : Fin 3) = 0 ∧ win0_0.index t (2 : Fin 3) = t.val % 25
    ∧ win0_1.index t (0 : Fin 2) = t.val % 25 ∧ win0_1.index t (1 : Fin 2) = 0
    ∧ win0_2.index t (0 : Fin 2) = t.val / 25 ∧ win0_2.index t (1 : Fin 2) = 0 :=
  (by decide +kernel : ∀ t : Fin grid0.N, _)

/-- The input block at point `t`, at (r, cc, j): the input array at batch row 1024·(t / 25) + r and vocabulary entry
    1280·(t % 25) + j. -/
theorem x_block (c : Dev nD) (t : Fin cfg0.N) (r : Fin 1024) (cc : Fin 2) (j : Fin 1280) (b : Fin 2048) (v : Fin 32000)
    (hb : b.val = 1024 * (t.val / 25) + r.val) (hv : v.val = 1280 * (t.val % 25) + j.val) :
    iblk0 V c 0 t (ix3 r cc j) = V c main_arg0 (ix3 b cc v) := by
  obtain ⟨e00, e01, e02, -⟩ := idx_facts t
  show V c main_arg0 (((cfg0.win 0).blk t).view.emb (ix3 r cc j)) = _
  refine congrArg (V c main_arg0) (funext fun a => Fin.ext ?_)
  match a with
  | ⟨0, _⟩ => show win0_0.index t (0 : Fin 3) * 1024 + 1 * r.val = b.val; rw [e00, hb]; omega
  | ⟨1, _⟩ => show win0_0.index t (1 : Fin 3) * 2 + 1 * cc.val = cc.val; rw [e01]; omega
  | ⟨2, _⟩ => show win0_0.index t (2 : Fin 3) * 1280 + 1 * j.val = v.val; rw [e02, hv]; omega

/-- The projection block at point `t`, at (j, e): the projection at vocabulary entry 1280·(t % 25) + j. -/
theorem p_block (c : Dev nD) (t : Fin cfg0.N) (j : Fin 1280) (e : Fin 128) (v : Fin 32000)
    (hv : v.val = 1280 * (t.val % 25) + j.val) :
    iblk0 V c 1 t (ix2 j e) = V c main_arg1 (ix2 v e) := by
  obtain ⟨-, -, -, e10, e11, -⟩ := idx_facts t
  show V c main_arg1 (((cfg0.win 1).blk t).view.emb (ix2 j e)) = _
  refine congrArg (V c main_arg1) (funext fun a => Fin.ext ?_)
  match a with
  | ⟨0, _⟩ => show win0_1.index t (0 : Fin 2) * 1280 + 1 * j.val = v.val; rw [e10, hv]; omega
  | ⟨1, _⟩ => show win0_1.index t (1 : Fin 2) * 128 + 1 * e.val = e.val; rw [e11]; omega

/-- One accumulation step at point `t`: a partial sum of the vocabulary contraction of batch row b over the tiles before
    tile t % 25 grows to the partial sum including it. -/
theorem step (c : Dev nD) (t : Fin cfg0.N) (xo : Vec Ideal S1024x128 .f32) (r : Fin 1024) (e : Fin 128) (b : Fin 2048)
    (hb : b.val = 1024 * (t.val / 25) + r.val)
    (hxo : xo (ix2 r e) = Cert.Spec.upTo (Cert.Spec.term (V c main_arg0) (V c main_arg1) b e) (1280 * (t.val % 25))) :
    k0_pay2 (iblk0 V c 0 t) (iblk0 V c 1 t) xo (ix2 r e)
      = Cert.Spec.upTo (Cert.Spec.term (V c main_arg0) (V c main_arg1) b e) (1280 * (t.val % 25) + 1280) := by
  have hK : 1280 * (t.val % 25) + 1280 ≤ 32000 := by omega
  rw [acc_apply (iblk0 V c 0 t) (iblk0 V c 1 t) xo r e, hxo, Cert.Spec.upTo_add _ _ _ hK]
  refine congrArg (_ + ·) (Finset.sum_congr rfl fun j _ => ?_)
  unfold Cert.Spec.term Cert.Spec.ctx
  rw [p_block V c t j e ⟨1280 * (t.val % 25) + j.val, _⟩ rfl]
  refine congrArg (· * _) (Finset.sum_congr rfl fun cc _ => ?_)
  exact x_block V c t r cc j b ⟨1280 * (t.val % 25) + j.val, _⟩ hb rfl

/-- THE ACCUMULATION. After point `n` (batch tile n / 25, vocabulary tile n % 25) the output block holds, at row r and
    column e, the partial sum of batch row 1024·(n / 25) + r's vocabulary contraction over the first n % 25 + 1 tiles: by
    induction on the point — the first tile of a batch tile starts from the zero block, a later one from what the point
    before left, and the last one's closing scaling changes nothing. -/
theorem acc_inv (c : Dev nD) (n : ℕ) : ∀ (hn : n < cfg0.N) (r : Fin 1024) (e : Fin 128) (b : Fin 2048),
    b.val = 1024 * (n / 25) + r.val →
    outsAt0 V c n hn (ix2 r e)
      = Cert.Spec.upTo (Cert.Spec.term (V c main_arg0) (V c main_arg1) b e) (1280 * (n % 25) + 1280) := by
  induction n using Nat.strong_induction_on with
  | _ n ih =>
    intro hn r e b hb
    have hN : cfg0.N = 50 := N_0
    by_cases h0 : n % 25 = 0
    · have h1 : ¬ n % 25 = 24 := by omega
      refine (congrFun (outsAt0_A V c ⟨n, hn⟩ h0 h1) (ix2 r e)).trans ?_
      rw [out_A]
      refine step V c ⟨n, hn⟩ _ r e b hb ?_
      rw [zero_apply]
      show (0 : EReal) = Cert.Spec.upTo _ (1280 * (n % 25))
      rw [h0]
      exact (Cert.Spec.upTo_zero _).symm
    · have hprev : ∀ h', outsAt0 V c (n - 1) h' (ix2 r e)
          = Cert.Spec.upTo (Cert.Spec.term (V c main_arg0) (V c main_arg1) b e) (1280 * (n % 25)) := fun h' => by
        rw [ih (n - 1) (by omega) h' r e b (by omega)]
        exact congrArg _ (by omega)
      by_cases h1 : n % 25 = 24
      · refine (congrFun (outsAt0_C V c ⟨n, hn⟩ h0 h1) (ix2 r e)).trans ?_
        rw [out_C, scale_apply]
        exact step V c ⟨n, hn⟩ _ r e b hb (hprev _)
      · refine (congrFun (outsAt0_B V c ⟨n, hn⟩ h0 h1) (ix2 r e)).trans ?_
        rw [out_B]
        exact step V c ⟨n, hn⟩ _ r e b hb (hprev _)

/-- The output window's block at point `t`, read off ANY array G[2048, 128] at (r, e): G at batch row 1024·(t / 25) + r. -/
theorem read_out_blk (t : Fin cfg0.N) (G : S2048x128.Idx → EReal) (r : Fin 1024) (e : Fin 128) (b : Fin 2048)
    (hb : b.val = 1024 * (t.val / 25) + r.val) :
    ((cfg0.win 2).blk t).view.read (Elt Ideal) G (ix2 r e) = G (ix2 b e) := by
  obtain ⟨-, -, -, -, -, e20, e21⟩ := idx_facts t
  show G (((cfg0.win 2).blk t).view.emb (ix2 r e)) = _
  refine congrArg G (funext fun a => Fin.ext ?_)
  match a with
  | ⟨0, _⟩ => show win0_2.index t (0 : Fin 2) * 1024 + 1 * r.val = b.val; rw [e20, hb]; omega
  | ⟨1, _⟩ => show win0_2.index t (1 : Fin 2) * 128 + 1 * e.val = e.val; rw [e21]; omega

/-- What a flushing point (the last vocabulary tile of its batch tile) writes back: that batch tile of the embedding array. -/
theorem flushed_eq (c : Dev nD) (t : Fin cfg0.N) (hf : (cfg0.win 2).flush t = true) :
    (dat0 V c).flushed 2 t = ((cfg0.win 2).blk t).view.read (Elt Ideal)
      (Cert.Spec.avgArr (V c main_arg0) (V c main_arg1)) := by
  have h24 : t.val % 25 = 24 := (flush0_2 t).mp hf
  have hN : t.val < 50 := lt_of_lt_of_eq t.isLt (show cfg0.N = 50 from N_0)
  show (cfg0.win 2).cut (grid0.coords t) ((dat0 V c).after 2 t) = _
  rw [after0_2]
  funext j
  obtain ⟨r, e, rfl⟩ : ∃ (r : Fin 1024) (e : Fin 128), j = ix2 r e := ⟨j 0, j 1, eq_ix2 j⟩
  refine Eq.trans ?_ (read_out_blk t _ r e ⟨1024 * (t.val / 25) + r.val, by omega⟩ rfl).symm
  show outsAt0 V c t.val t.isLt (ix2 r e) = _
  rw [acc_inv V c t.val t.isLt r e ⟨1024 * (t.val / 25) + r.val, by omega⟩ rfl,
    show 1280 * (t.val % 25) + 1280 = 32000 from by omega, Cert.Spec.upTo_all]
  exact (Cert.Spec.avgArr_apply _ _ _ _).symm

/-- An index of the embedding array is in point `t`'s block iff each coordinate is in the block's range on its axis. -/
theorem mem_blk (t : Fin cfg0.N) (i : S2048x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Every entry (b, e) of the embedding array lies in the block written back at the last vocabulary tile of batch tile
    b / 1024. -/
theorem cover (i : S2048x128.Idx) :
    ∃ t : Fin cfg0.N, (cfg0.win 2).flush t = true ∧ i ∈ ((cfg0.win 2).blk t).view.set := by
  have h0 : (i 0).val < 2048 := (i 0).isLt
  have h1 : (i 1).val < 128 := (i 1).isLt
  have hN : cfg0.N = 50 := N_0
  have hlt : 25 * ((i 0).val / 1024) + 24 < cfg0.N := by rw [hN]; omega
  obtain ⟨-, -, -, -, -, e20, e21⟩ := idx_facts ⟨25 * ((i 0).val / 1024) + 24, hlt⟩
  refine ⟨⟨25 * ((i 0).val / 1024) + 24, hlt⟩, (flush0_2 _).mpr (by dsimp only; omega), ?_⟩
  rw [mem_blk]
  intro a
  match a with
  | ⟨0, _⟩ =>
    show win0_2.index ⟨25 * ((i 0).val / 1024) + 24, hlt⟩ (0 : Fin 2) * 1024 ≤ (i 0).val
      ∧ (i 0).val < win0_2.index ⟨25 * ((i 0).val / 1024) + 24, hlt⟩ (0 : Fin 2) * 1024 + 1024
    rw [e20]; dsimp only; omega
  | ⟨1, _⟩ =>
    show win0_2.index ⟨25 * ((i 0).val / 1024) + 24, hlt⟩ (1 : Fin 2) * 128 ≤ (i 1).val
      ∧ (i 1).val < win0_2.index ⟨25 * ((i 0).val / 1024) + 24, hlt⟩ (1 : Fin 2) * 128 + 128
    rw [e21]; omega

/-- The embedding array after the first call: the context sum contracted with the projection over the whole vocabulary. -/
theorem final (c : Dev nD) :
    (dat0 V c).arrAt 2 cfg0.N = Cert.Spec.avgArr (V c main_arg0) (V c main_arg1) :=
  (dat0 V c).arrAt_eq_of_cover 2 _ (flushed_eq V c) cover

end Cert.KernelIdeal.Region0

end
-- ==== Proof.Region1Pay.lean ====
/-
  The second kernel's arithmetic at one entry of its output block, over the extended reals.

  At a grid point the kernel holds an embedding block a[1024, 128], a weight block w[1280, 128] and a bias row
  b[1, 1280], and stores a · wᵀ + b: at row r and column q,  ∑ₑ a[r, e] · w[q, e] + b[0, q].  The matrix product contracts
  the SECOND axis of both operands into a zero accumulator; the changes of float format around it are the identity.
-/
import proofs.«150867_j87351044866530_2_alg».proof.Proof.Gen.KernelIdeal.Frame
import proofs.«150867_j87351044866530_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat)

theorem lhs_row (i : S1024x1280.Idx) (κ : dot_S1024x128_S1280x128_S1024x1280_1_1_0_0_n_n.contr.Idx) : (dot_S1024x128_S1280x128_S1024x1280_1_1_0_0_n_n.lhsIdx i κ 0).val = (i 0).val := by
  unfold DotDims.lhsIdx
  rw [dif_neg (show ¬(0 : Fin S1024x128.rank) ∈ dot_S1024x128_S1280x128_S1024x1280_1_1_0_0_n_n.lhsBatch by decide), dif_pos (show (0 : Fin S1024x128.rank) ∈ dot_S1024x128_S1280x128_S1024x1280_1_1_0_0_n_n.lhsNonContracting by decide)]
  rfl
theorem lhs_col (i : S1024x1280.Idx) (κ : dot_S1024x128_S1280x128_S1024x1280_1_1_0_0_n_n.contr.Idx) : (dot_S1024x128_S1280x128_S1024x1280_1_1_0_0_n_n.lhsIdx i κ 1).val = (κ ⟨0, by decide⟩).val :=
  dot_S1024x128_S1280x128_S1024x1280_1_1_0_0_n_n.lhsIdx_val_of_single rfl i κ
theorem rhs_row (i : S1024x1280.Idx) (κ : dot_S1024x128_S1280x128_S1024x1280_1_1_0_0_n_n.contr.Idx) : (dot_S1024x128_S1280x128_S1024x1280_1_1_0_0_n_n.rhsIdx i κ 0).val = (i 1).val := by
  unfold DotDims.rhsIdx
  rw [dif_neg (show ¬(0 : Fin S1280x128.rank) ∈ dot_S1024x128_S1280x128_S1024x1280_1_1_0_0_n_n.rhsBatch by decide), dif_pos (show (0 : Fin S1280x128.rank) ∈ dot_S1024x128_S1280x128_S1024x1280_1_1_0_0_n_n.rhsNonContracting by decide)]
  rfl
theorem rhs_col (i : S1024x1280.Idx) (κ : dot_S1024x128_S1280x128_S1024x1280_1_1_0_0_n_n.contr.Idx) : (dot_S1024x128_S1280x128_S1024x1280_1_1_0_0_n_n.rhsIdx i κ 1).val = (κ ⟨0, by decide⟩).val :=
  dot_S1024x128_S1280x128_S1024x1280_1_1_0_0_n_n.rhsIdx_val_of_single rfl i κ

/-- The product of an embedding block [1024, 128] with a weight block [1280, 128] contracted over the embedding axis, into
    a zero accumulator, at row `r` and column `q`: the sum over `e` of the row's entry times the weight row `q`'s. -/
theorem matmul_apply (a : FVec Ideal S1024x128 .bf16) (w : FVec Ideal S1280x128 .bf16) (r : Fin 1024) (q : Fin 1280) :
    matmul dot_S1024x128_S1280x128_S1024x1280_1_1_0_0_n_n none a w (constant S1024x1280 .f32 0x00000000#32) (ix2 r q) = ∑ e : Fin 128, a (ix2 r e) * w (ix2 q e) := by
  simp only [matmul]
  rw [Ideal.matmul_constant_zero_apply, ← Equiv.sum_comp (ValueIdx.contrEquiv1 dot_S1024x128_S1280x128_S1024x1280_1_1_0_0_n_n 128 rfl rfl).symm]
  refine Finset.sum_congr rfl fun k _ => ?_
  have hk := ValueIdx.contrEquiv1_symm_val dot_S1024x128_S1280x128_S1024x1280_1_1_0_0_n_n 128 rfl rfl k
  have el : dot_S1024x128_S1280x128_S1024x1280_1_1_0_0_n_n.lhsIdx (ix2 r q) ((ValueIdx.contrEquiv1 dot_S1024x128_S1280x128_S1024x1280_1_1_0_0_n_n 128 rfl rfl).symm k) = ix2 r k := funext fun a => Fin.ext (by
    match a with
    | ⟨0, _⟩ => exact lhs_row _ _
    | ⟨1, _⟩ => exact (lhs_col _ _).trans hk)
  have er : dot_S1024x128_S1280x128_S1024x1280_1_1_0_0_n_n.rhsIdx (ix2 r q) ((ValueIdx.contrEquiv1 dot_S1024x128_S1280x128_S1024x1280_1_1_0_0_n_n 128 rfl rfl).symm k) = ix2 q k := funext fun a => Fin.ext (by
    match a with
    | ⟨0, _⟩ => exact rhs_row _ _
    | ⟨1, _⟩ => exact (rhs_col _ _).trans hk)
  rw [el, er]

/-- The bias row [1, 1280] broadcast down the 1024 rows, at row `r` and column `q`: the row's entry `q`. -/
theorem bias_apply (x2 : FVec Ideal S1x1280 .f32) (r : Fin 1024) (q : Fin 1280) :
    broadcastTo S1024x1280 x2 broadcasts_S1x1280_S1024x1280 (ix2 r q) = x2 (ix2 (0 : Fin 1) q) :=
  broadcastTo_apply x2 broadcasts_S1x1280_S1024x1280 (ix2 r q) (ix2 (0 : Fin 1) q) (fun a => match a with
    | ⟨0, _⟩ => by show 0 = if (1 : Nat) = 1 then 0 else _; rw [if_pos rfl]
    | ⟨1, _⟩ => by show q.val = if (1280 : Nat) = 1 then 0 else q.val; rw [if_neg (by decide)])

/-- The second kernel's stored value at row `r`, column `q` of its block, from its three loaded blocks. -/
theorem pay_apply (x0 : Vec Ideal S1024x128 .f32) (x1 : Vec Ideal S1280x128 .f32) (x2 : Vec Ideal S1x1280 .f32)
    (r : Fin 1024) (q : Fin 1280) :
    k1_pay1 x0 x1 x2 (ix2 r q) = (∑ e : Fin 128, x0 (ix2 r e) * x1 (ix2 q e)) + x2 (ix2 (0 : Fin 1) q) := by
  unfold k1_pay1
  simp only [shapeCast_self]
  rw [addf_apply, matmul_apply, bias_apply]
  rfl

end Cert.KernelIdeal.Region1

end
-- ==== Proof.Region1.lean ====
/-
  The second kernel call as a whole: its result array is the output projection of the arrays it is entered with.

  The call runs a 2 × 25 grid; point t handles batch tile t / 25 and vocabulary tile t % 25. It loads the embedding tile
  (rows 1024·(t / 25) …), the weight tile and the bias tile (vocabulary entries 1280·(t % 25) …), and writes back the
  [1024, 1280] tile of the result at those rows and columns, every point writing its own tile. Each written entry is the
  projection  ∑ₑ a[b, e] · W[v, e] + bias[v]  at its own (b, v), and the 50 tiles cover the [2048, 32000] result: so the
  array ends at the projection, entry by entry.
-/
import proofs.«150867_j87351044866530_2_alg».proof.Proof.Gen.KernelIdeal.Frame
import proofs.«150867_j87351044866530_2_alg».proof.Proof.Spec
import proofs.«150867_j87351044866530_2_alg».proof.Proof.Region1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The second call's index maps over its 2 × 25 grid: point `t` is batch tile `t / 25` and vocabulary tile `t % 25`; the
    embedding window follows the batch tile, the weight and bias windows the vocabulary tile, the output both. -/
theorem idx_facts : ∀ t : Fin cfg1.N,
    win1_3.index t (0 : Fin 2) = t.val / 25 ∧ win1_3.index t (1 : Fin 2) = t.val % 25
    ∧ win1_0.index t (0 : Fin 2) = t.val / 25 ∧ win1_0.index t (1 : Fin 2) = 0
    ∧ win1_1.index t (0 : Fin 2) = t.val % 25 ∧ win1_1.index t (1 : Fin 2) = 0
    ∧ win1_2.index t (0 : Fin 2) = 0 ∧ win1_2.index t (1 : Fin 2) = t.val % 25 :=
  (by decide +kernel : ∀ t : Fin grid1.N, _)

/-- One entry of the stored block, when the three loaded blocks are tile (I, ·) of an embedding array `a`, tile (J, ·) of the
    weights `W` and tile (·, J) of the bias row: the projection of `a` at row 1024·I + r and column 1280·J + q. -/
theorem point_value (a : S2048x128.Idx → EReal) (W : S32000x128.Idx → EReal) (brow : S1x32000.Idx → EReal)
    (x0 : Vec Ideal S1024x128 .f32) (x1 : Vec Ideal S1280x128 .f32) (x2 : Vec Ideal S1x1280 .f32)
    (I J : ℕ) (hI : I < 2) (hJ : J < 25)
    (h0 : ∀ (r : Fin 1024) (e : Fin 128), x0 (ix2 r e) = a (ix2 (⟨1024 * I + r.val, by omega⟩ : Fin 2048) e))
    (h1 : ∀ (q : Fin 1280) (e : Fin 128), x1 (ix2 q e) = W (ix2 (⟨1280 * J + q.val, by omega⟩ : Fin 32000) e))
    (h2 : ∀ (q : Fin 1280), x2 (ix2 (0 : Fin 1) q) = brow (ix2 (0 : Fin 1) (⟨1280 * J + q.val, by omega⟩ : Fin 32000)))
    (r : Fin 1024) (q : Fin 1280) :
    k1_pay1 x0 x1 x2 (ix2 r q)
      = Cert.Spec.proj2 a W brow (ix2 (⟨1024 * I + r.val, by omega⟩ : Fin 2048) (⟨1280 * J + q.val, by omega⟩ : Fin 32000)) := by
  rw [pay_apply]
  unfold Cert.Spec.proj2
  simp only [h0, h1, h2]

/-- What grid point `t` writes back is tile (t / 25, t % 25) of the projection of the arrays as the call finds them. -/
theorem flushed_eq (c : Dev nD) (t : Fin cfg1.N) :
    (dat1 V c).flushed 3 t = ((cfg1.win 3).blk t).view.read (Elt Ideal)
      (Cert.Spec.proj2 (V c main_v0) (V c main_arg2) (V c main_v1)) := by
  show (cfg1.win 3).cut (grid1.coords t) ((dat1 V c).after 3 t) = _
  rw [after1_3]
  unfold out1_3
  rw [View.canon_unit_zero hz2]
  simp only [View.ld_unit_zero (S := S1024x128) hz2, View.ld_unit_zero (S := S1280x128) hz2, View.ld_unit_zero (S := S1x1280) hz2]
  obtain ⟨e30, e31, e00, e01, e10, e11, e20, e21⟩ := idx_facts t
  have hN : t.val < 50 := lt_of_lt_of_eq t.isLt (show cfg1.N = 50 from N_1)
  funext j
  obtain ⟨r, q, rfl⟩ : ∃ (r : Fin 1024) (q : Fin 1280), j = ix2 r q := ⟨j 0, j 1, eq_ix2 j⟩
  show k1_pay1 (iblk1 V c 0 t) (iblk1 V c 1 t) (iblk1 V c 2 t) (ix2 r q)
    = Cert.Spec.proj2 (V c main_v0) (V c main_arg2) (V c main_v1) (((cfg1.win 3).blk t).view.emb (ix2 r q))
  refine (point_value (V c main_v0) (V c main_arg2) (V c main_v1) (iblk1 V c 0 t) (iblk1 V c 1 t) (iblk1 V c 2 t)
    (t.val / 25) (t.val % 25) (by omega) (by omega) ?_ ?_ ?_ r q).trans ?_
  · intro r e
    show V c main_v0 (((cfg1.win 0).blk t).view.emb (ix2 r e)) = _
    refine congrArg (V c main_v0) (funext fun a => Fin.ext ?_)
    match a with
    | ⟨0, _⟩ => show win1_0.index t (0 : Fin 2) * 1024 + 1 * r.val = 1024 * (t.val / 25) + r.val; rw [e00]; omega
    | ⟨1, _⟩ => show win1_0.index t (1 : Fin 2) * 128 + 1 * e.val = e.val; rw [e01]; omega
  · intro q e
    show V c main_arg2 (((cfg1.win 1).blk t).view.emb (ix2 q e)) = _
    refine congrArg (V c main_arg2) (funext fun a => Fin.ext ?_)
    match a with
    | ⟨0, _⟩ => show win1_1.index t (0 : Fin 2) * 1280 + 1 * q.val = 1280 * (t.val % 25) + q.val; rw [e10]; omega
    | ⟨1, _⟩ => show win1_1.index t (1 : Fin 2) * 128 + 1 * e.val = e.val; rw [e11]; omega
  · intro q
    show V c main_v1 (((cfg1.win 2).blk t).view.emb (ix2 (0 : Fin 1) q)) = _
    refine congrArg (V c main_v1) (funext fun a => Fin.ext ?_)
    match a with
    | ⟨0, _⟩ => show win1_2.index t (0 : Fin 2) * 1 + 1 * 0 = 0; rw [e20]
    | ⟨1, _⟩ => show win1_2.index t (1 : Fin 2) * 1280 + 1 * q.val = 1280 * (t.val % 25) + q.val; rw [e21]; omega
  · refine congrArg (Cert.Spec.proj2 (V c main_v0) (V c main_arg2) (V c main_v1)) (funext fun a => Fin.ext ?_)
    match a with
    | ⟨0, _⟩ => show 1024 * (t.val / 25) + r.val = win1_3.index t (0 : Fin 2) * 1024 + 1 * r.val; rw [e30]; omega
    | ⟨1, _⟩ => show 1280 * (t.val % 25) + q.val = win1_3.index t (1 : Fin 2) * 1280 + 1 * q.val; rw [e31]; omega

/-- An index of the result array is in point `t`'s block iff each coordinate is in the block's range on its axis. -/
theorem mem_blk (t : Fin cfg1.N) (i : S2048x32000.Idx) :
    i ∈ ((cfg1.win 3).blk t).view.set ↔ ∀ a : Fin 2, win1_3.index t a * S1024x1280.size a ≤ (i a).val
      ∧ (i a).val < win1_3.index t a * S1024x1280.size a + S1024x1280.size a := by
  show i ∈ ((View.whole main_v2).slice (win1_3.rect t)).set ↔ _
  rw [View.set_slice_whole, Rect.mem_set_unit]
  exact Iff.rfl

/-- Every entry (b, v) of the result lies in the block of the point of batch tile b / 1024 and vocabulary tile v / 1280,
    and every point writes its block back. -/
theorem cover (i : S2048x32000.Idx) :
    ∃ t : Fin cfg1.N, (cfg1.win 3).flush t = true ∧ i ∈ ((cfg1.win 3).blk t).view.set := by
  have h0 : (i 0).val < 2048 := (i 0).isLt
  have h1 : (i 1).val < 32000 := (i 1).isLt
  have hN : cfg1.N = 50 := N_1
  have hlt : 25 * ((i 0).val / 1024) + (i 1).val / 1280 < cfg1.N := by rw [hN]; omega
  obtain ⟨e30, e31, -⟩ := idx_facts ⟨25 * ((i 0).val / 1024) + (i 1).val / 1280, hlt⟩
  refine ⟨⟨25 * ((i 0).val / 1024) + (i 1).val / 1280, hlt⟩, flush1_3 _, ?_⟩
  rw [mem_blk]
  intro a
  match a with
  | ⟨0, _⟩ =>
    show win1_3.index ⟨25 * ((i 0).val / 1024) + (i 1).val / 1280, hlt⟩ (0 : Fin 2) * 1024 ≤ (i 0).val
      ∧ (i 0).val < win1_3.index ⟨25 * ((i 0).val / 1024) + (i 1).val / 1280, hlt⟩ (0 : Fin 2) * 1024 + 1024
    rw [e30]; dsimp only; omega
  | ⟨1, _⟩ =>
    show win1_3.index ⟨25 * ((i 0).val / 1024) + (i 1).val / 1280, hlt⟩ (1 : Fin 2) * 1280 ≤ (i 1).val
      ∧ (i 1).val < win1_3.index ⟨25 * ((i 0).val / 1024) + (i 1).val / 1280, hlt⟩ (1 : Fin 2) * 1280 + 1280
    rw [e31]; dsimp only; omega

/-- The result array after the second call: the projection of the arrays as the call finds them. -/
theorem final (c : Dev nD) :
    (dat1 V c).arrAt 3 cfg1.N = Cert.Spec.proj2 (V c main_v0) (V c main_arg2) (V c main_v1) :=
  (dat1 V c).arrAt_eq_of_cover 3 _ (fun t _ => flushed_eq V c t) cover

end Cert.KernelIdeal.Region1

end
-- ==== Proof.Result.lean ====
/-
  The two kernel calls composed: the idealized kernel's result as one function of its launch arguments.

  The first call leaves the embedding array (the whole-vocabulary contraction of the context-summed inputs with proj); the
  host line between the calls only reshapes the bias [32000] to a row [1, 32000] and touches nothing else; the second call
  projects the embedding through the weights and adds the bias row. Reading the buffer contents at the segment boundaries back
  to the launch memory, the result buffer ends at
      result x proj W bias  =  (b, v) ↦ ∑ₑ (∑ᵥ' (x[b, 0, v'] + x[b, 1, v']) · proj[v', e]) · W[v, e] + bias[v].
-/
import proofs.«150867_j87351044866530_2_alg».proof.Proof.Gen.KernelIdeal.Frame
import proofs.«150867_j87351044866530_2_alg».proof.Proof.Spec
import proofs.«150867_j87351044866530_2_alg».proof.Proof.KernelRun
import proofs.«150867_j87351044866530_2_alg».proof.Proof.Region0
import proofs.«150867_j87351044866530_2_alg».proof.Proof.Region1
import Idealize.ShloMosaic.Lib.StableHlo.Run
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ResultValue

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The host line between the two calls writes only the bias row: the embedding array passes through it. -/
theorem W2_main_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.reshape_writes, Finset.mem_singleton]
    repeat' apply And.intro
    all_goals exact StableHlo.devRef_ne_of_ne (by decide)))

/-- and so do the weights. -/
theorem W2_main_arg2 (c : Dev nD) : W2 m ρ c (Proc.devRef .tc main_arg2) = W1 m ρ c (Proc.devRef .tc main_arg2) :=
  StableHlo.after_of_forall_not_mem (b := Proc.devRef .tc main_arg2) _ _ (List.forall_iff_forall_mem.mp (by
    simp only [hostOps1, List.Forall, StableHlo.reshape_writes, Finset.mem_singleton]
    repeat' apply And.intro
    all_goals exact StableHlo.devRef_ne_of_ne (by decide)))

/-- The second call's embedding operand is the first call's result: the whole-vocabulary contraction of the launch inputs. -/
theorem emb_eq (c : Dev nD) :
    V2 m ρ c main_v0 = Cert.Spec.avgArr (m ((c : Thread nD τ).loc main_arg0)) (m ((c : Thread nD τ).loc main_arg1)) :=
  calc V2 m ρ c main_v0
    _ = W1 m ρ c (Proc.devRef .tc main_v0) := W2_main_v0 m ρ c
    _ = (dat0 (V0 m ρ) c).arrAt 2 cfg0.N := W1_arr m ρ c 2
    _ = Cert.Spec.avgArr (V0 m ρ c main_arg0) (V0 m ρ c main_arg1) := Cert.KernelIdeal.Region0.final (V0 m ρ) c

/-- Its weight operand is the launch weights. -/
theorem w_eq (c : Dev nD) : V2 m ρ c main_arg2 = m ((c : Thread nD τ).loc main_arg2) :=
  calc V2 m ρ c main_arg2
    _ = W1 m ρ c (Proc.devRef .tc main_arg2) := W2_main_arg2 m ρ c
    _ = W0 m ρ c (Proc.devRef .tc main_arg2) := W1_of_ne m ρ c main_arg2 (by decide)

/-- Its bias operand is the host reshape of the launch bias to one row. -/
theorem b_eq (c : Dev nD) : V2 m ρ c main_v1 = Cert.Spec.biasRow (m ((c : Thread nD τ).loc main_arg3)) := by
  show StableHlo.after hostOps1 (W1 m ρ c) (Proc.devRef .tc main_v1) = _
  after_results
  funext i
  obtain ⟨u, v, rfl⟩ : ∃ (u : Fin 1) (v : Fin 32000), i = ix2 u v := ⟨i 0, i 1, eq_ix2 i⟩
  show shapeCast S1x32000 (W1 m ρ c (Proc.devRef .tc main_arg3)) shapeCasts_S32000_S1x32000 (ix2 u v)
    = m ((c : Thread nD τ).loc main_arg3) (ix1 v)
  rw [W1_of_ne m ρ c main_arg3 (by decide)]
  exact shapeCast_a_1a_apply _ shapeCasts_S32000_S1x32000 u v

/-- THE KERNEL'S RESULT: the last boundary's contents at the result buffer are the specification of the launch arguments —
    the second call's projection of the first call's embedding, the weights and the reshaped bias. -/
theorem result_eq (c : Dev nD) :
    W3 m ρ c (Proc.devRef .tc main_v2)
      = Cert.Spec.result (m ((c : Thread nD τ).loc main_arg0)) (m ((c : Thread nD τ).loc main_arg1))
          (m ((c : Thread nD τ).loc main_arg2)) (m ((c : Thread nD τ).loc main_arg3)) :=
  calc W3 m ρ c (Proc.devRef .tc main_v2)
    _ = (dat1 (V2 m ρ) c).arrAt 3 cfg1.N := W3_arr m ρ c 3
    _ = Cert.Spec.proj2 (V2 m ρ c main_v0) (V2 m ρ c main_arg2) (V2 m ρ c main_v1) := Cert.KernelIdeal.Region1.final (V2 m ρ) c
    _ = _ := by rw [emb_eq, w_eq, b_eq]; rfl

/-- The idealized kernel's run, read: every weakly fair execution terminates with the result buffer at the specification
    of the launch arguments and the arguments unchanged. -/
theorem run : θ_run defs (onTc (τ := τ) (main (F := Ideal))) ⟨m, fun _ => 0, ρ⟩ (fun r => ∀ c : Dev nD,
      r.2.mem ((c.tc : Thread nD τ).loc main_v2)
        = Cert.Spec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩)
    (Cert.KernelIdeal.RunValue.run_W3 m ρ)

end Cert.KernelIdeal.ResultValue

end
-- ==== Proof.RefValue.lean ====
/-
  The reference, stage by stage, is the specification.

  The jnp reference sums x over its context axis (from a zero), contracts the result with proj over the whole vocabulary,
  divides by the constant 1.0, multiplies by the transposed weights and adds the bias broadcast down the batch rows. Over
  the extended reals  0 + s = s,  the word of 1.0 is the real one and  s / 1 = s,  so entry (b, v) of its result is
      ∑ₑ (∑ᵥ' (x[b, 0, v'] + x[b, 1, v']) · proj[v', e]) · W[v, e] + bias[v].
-/
import proofs.«150867_j87351044866530_2_alg».proof.Proof.Gen.ReferenceIdeal.Run
import proofs.«150867_j87351044866530_2_alg».proof.Proof.Gen.ReferenceIdeal.Read
import proofs.«150867_j87351044866530_2_alg».proof.Proof.Spec
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- Division by one is the identity on the extended reals. -/
theorem div_one (x : EReal) : Ideal.div x 1 = x := by
  unfold Ideal.div
  rw [if_neg one_ne_zero, inv_one, mul_one]

/-- The reference's sum over the context axis, from the zero it starts at: the two context entries added. -/
theorem ctx_eq (x0 : (⟨S2048x2x32000, .f32⟩ : BufTy).Contents (Elt Ideal)) (b : Fin 2048) (v : Fin 32000) :
    val_main_v0 (F := Ideal) x0 (ix2 b v) = Cert.Spec.ctx x0 b v := by
  rw [val_main_v0_apply, val_main_cst_apply]
  show Ideal.ofBits .f32 0x00000000#32 + ∑ k : Fin 2, x0 (idx_main_v0 (ix2 b v) k) = ∑ c : Fin 2, x0 (ix3 b c v)
  rw [Ideal.ofBits_zero_f32, zero_add]
  refine Finset.sum_congr rfl fun k _ => congrArg x0 (funext fun a => ?_)
  match a with
  | ⟨0, _⟩ => rfl
  | ⟨1, _⟩ => rfl
  | ⟨2, _⟩ => rfl

/-- The reference's embedding: the whole-vocabulary contraction, divided by the word of 1.0. -/
theorem avg_eq (x0 : (⟨S2048x2x32000, .f32⟩ : BufTy).Contents (Elt Ideal)) (x1 : (⟨S32000x128, .f32⟩ : BufTy).Contents (Elt Ideal))
    (b : Fin 2048) (e : Fin 128) :
    val_main_v3 (F := Ideal) x0 x1 (ix2 b e) = Cert.Spec.avg x0 x1 b e := by
  rw [val_main_v3_apply, val_main_v1_apply, val_main_v2_apply, val_main_cst_0_apply]
  show Ideal.div (∑ k : Fin 32000, val_main_v0 (F := Ideal) x0 (lidx_main_v1 (ix2 b e) k) * x1 (ridx_main_v1 (ix2 b e) k))
    (Ideal.ofBits .f32 0x3F800000#32) = _
  rw [Ideal.ofBits_one_f32, div_one]
  unfold Cert.Spec.avg Cert.Spec.term
  refine Finset.sum_congr rfl fun k _ => ?_
  have el : lidx_main_v1 (ix2 b e) k = ix2 b k := funext fun a => by
    match a with
    | ⟨0, _⟩ => rfl
    | ⟨1, _⟩ => rfl
  have er : ridx_main_v1 (ix2 b e) k = ix2 k e := funext fun a => by
    match a with
    | ⟨0, _⟩ => rfl
    | ⟨1, _⟩ => rfl
  rw [el, er, ctx_eq]

/-- The reference's last stage is the specification: the embedding times the transposed weights, plus the bias broadcast
    down the batch rows. -/
theorem result_eq (x0 : (⟨S2048x2x32000, .f32⟩ : BufTy).Contents (Elt Ideal)) (x1 x2 : (⟨S32000x128, .f32⟩ : BufTy).Contents (Elt Ideal))
    (x3 : (⟨S32000, .f32⟩ : BufTy).Contents (Elt Ideal)) :
    val_main_v8 (F := Ideal) x0 x1 x2 x3 = Cert.Spec.result x0 x1 x2 x3 := by
  funext i
  obtain ⟨b, v, rfl⟩ : ∃ (b : Fin 2048) (v : Fin 32000), i = ix2 b v := ⟨i 0, i 1, eq_ix2 i⟩
  rw [val_main_v8_apply, val_main_v5_apply, val_main_v7_apply, val_main_v6_apply]
  show (∑ k : Fin 128, val_main_v3 (F := Ideal) x0 x1 (lidx_main_v5 (ix2 b v) k) * val_main_v4 (F := Ideal) x2 (ridx_main_v5 (ix2 b v) k))
      + x3 (idx_main_v6 (idx_main_v7 (ix2 b v)))
    = (∑ e : Fin 128, Cert.Spec.avg x0 x1 b e * x2 (ix2 v e)) + x3 (ix1 v)
  refine congr (congrArg _ (Finset.sum_congr rfl fun k _ => ?_)) (congrArg x3 (funext fun a => ?_))
  · have el : lidx_main_v5 (ix2 b v) k = ix2 b k := funext fun a => by
      match a with
      | ⟨0, _⟩ => rfl
      | ⟨1, _⟩ => rfl
    have er : idx_main_v4 (ridx_main_v5 (ix2 b v) k) = ix2 v k := funext fun a => by
      match a with
      | ⟨0, _⟩ => rfl
      | ⟨1, _⟩ => rfl
    rw [el, avg_eq, val_main_v4_apply, er]
  · match a with
    | ⟨0, _⟩ => rfl

end Cert.ReferenceIdeal.RefValue

end
-- ==== Proof.lean ====
/-
  A two-stage embedding kernel against its jnp reference, over the extended reals.

  For x[2048, 2, 32000], proj[32000, 128], W[32000, 128], bias[32000] both programs compute
      out[b, v] = ∑ₑ avg[b, e] · W[v, e] + bias[v],      avg[b, e] = ∑ᵥ' (x[b, 0, v'] + x[b, 1, v']) · proj[v', e].
  The kernel computes avg in a first call that tiles the vocabulary into 25 tiles of 1280 and accumulates the tiles' partial
  contractions into a resident output block (zeroed at the first tile, multiplied by 1.0 after the last), and out in a second
  call that tiles batch and vocabulary; the reference contracts over the whole vocabulary at once and divides by 1.0. Over the
  extended reals a finite sum may be taken tile by tile in any grouping, x · 1 = x and x / 1 = x, and a change of float format
  is the identity: the two results are one function of the arguments (`Cert.Spec.result`), entry by entry. No finiteness of the
  inputs is needed for that; the precondition is not opened.

  The three frames are the generated frame certificates (the reference's: its generated run with the result dropped); the one
  ledger entry (a bf16 round trip of the loaded input block, the identity at the ideal values) is its rule's statement.
-/
import proofs.«150867_j87351044866530_2_alg».proof.Defs
import proofs.«150867_j87351044866530_2_alg».proof.Proof.Gen.Kernel
import proofs.«150867_j87351044866530_2_alg».proof.Proof.Gen.Kernel.Skeleton
import proofs.«150867_j87351044866530_2_alg».proof.Proof.Gen.Kernel.Launch
import proofs.«150867_j87351044866530_2_alg».proof.Proof.Gen.Kernel.Points
import proofs.«150867_j87351044866530_2_alg».proof.Proof.Gen.Kernel.Frame
import proofs.«150867_j87351044866530_2_alg».proof.Proof.Gen.KernelIdeal
import proofs.«150867_j87351044866530_2_alg».proof.Proof.Gen.KernelIdeal.Skeleton
import proofs.«150867_j87351044866530_2_alg».proof.Proof.Gen.KernelIdeal.Launch
import proofs.«150867_j87351044866530_2_alg».proof.Proof.Gen.KernelIdeal.Points
import proofs.«150867_j87351044866530_2_alg».proof.Proof.Gen.KernelIdeal.Frame
import proofs.«150867_j87351044866530_2_alg».proof.Proof.Gen.ReferenceIdeal
import proofs.«150867_j87351044866530_2_alg».proof.Proof.Gen.ReferenceIdeal.Run
import proofs.«150867_j87351044866530_2_alg».proof.Proof.Gen.ReferenceIdeal.Read
import proofs.«150867_j87351044866530_2_alg».proof.Proof.Gen.Pre_finite_inputs
import proofs.«150867_j87351044866530_2_alg».proof.Proof.Result
import proofs.«150867_j87351044866530_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: widening back a block narrowed to bf16 is the identity at the ideal values, the rounding
    through bf16 at the word level. -/
theorem preserves : Cert.preserves_Kernel_KernelIdeal :=
  IdealRules.truncf_extf.statement Cert.KernelIdeal.S1024x2x1280 .f32 .bf16

/-- At the ideal values the kernel's result buffer ends at the specification of its arguments and the reference's at the
    same specification of arguments that agree with them. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
